-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x64x2048 : Shape := ⟨3, ![64, 64, 2048]⟩
abbrev S1x512x64 : Shape := ⟨3, ![1, 512, 64]⟩
abbrev S1x2048x64 : Shape := ⟨3, ![1, 2048, 64]⟩
abbrev S1x64x512 : Shape := ⟨3, ![1, 64, 512]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S64x512 : Shape := ⟨2, ![64, 512]⟩
abbrev S4x16x64x2048 : Shape := ⟨4, ![4, 16, 64, 2048]⟩

abbrev nBuf : Space → Nat
  | .hbm => 12
  | .vmem => 6
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .bf16⟩
  | .hbm, ⟨5, _⟩ => ⟨S64x2048x64, .f32⟩
  | .hbm, ⟨6, _⟩ => ⟨S64x2048x64, .bf16⟩
  | .hbm, ⟨7, _⟩ => ⟨S64x2048x64, .f32⟩
  | .hbm, ⟨8, _⟩ => ⟨S64x2048x64, .bf16⟩
  | .hbm, ⟨9, _⟩ => ⟨S64x64x2048, .f32⟩
  | .hbm, ⟨10, _⟩ => ⟨S4x16x64x2048, .f32⟩
  | .hbm, ⟨11, _⟩ => ⟨S4x16x2048x64, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x64x512, .f32⟩
  | .local _ .vmem, ⟨5, _⟩ => ⟨S1x64x512, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S64x64x2048_S4x16x64x2048 : S64x64x2048.ShapeCasts S4x16x64x2048
  transposes_S4x16x64x2048_S4x16x2048x64_0_1_3_2 : S4x16x64x2048.Transposes [0, 1, 3, 2] S4x16x2048x64
  dot_S512x64_S64x2048_S512x2048_1_0_0_1_n_n_wf : DotDims.WF S512x64 S64x2048 S512x2048 [1] [0] [0] [1] [] []
  dot_S2048x64_S512x2048_S64x512_0_1_1_0_n_n_wf : DotDims.WF S2048x64 S512x2048 S64x512 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .bf16 = 32 ∨ (Rect.block (s := S64x2048x64) S1x512x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .bf16 = 32 ∨ (Rect.block (s := S64x2048x64) S1x2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S64x64x2048.size a
  hwx0_3 : ∀ i : grid0.Coords, EltTy.bits .f32 = 32 ∨ (Rect.block (s := S64x64x2048) S1x64x512.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S2048x64_S512x2048_S64x512_0_1_1_0_n_n : DotDims S2048x64 S512x2048 S64x512 where
  lhsContracting := [0]
  rhsContracting := [1]
  lhsNonContracting := [1]
  rhsNonContracting := [0]
  lhsBatch := []
  rhsBatch := []
  wf := dot_S2048x64_S512x2048_S64x512_0_1_1_0_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048, .f32⟩
  | .hbm, ⟨10, _⟩ => ⟨S4x16x2048x1, .f32⟩
  | .hbm, ⟨11, _⟩ => ⟨S_, .f32⟩
  | .hbm, ⟨12, _⟩ => ⟨S4x16x2048x1, .f32⟩
  | .hbm, ⟨13, _⟩ => ⟨S4x16x2048x1, .f32⟩
  | .hbm, ⟨14, _⟩ => ⟨S4x16x2048x2048, .f32⟩
  | .hbm, ⟨15, _⟩ => ⟨S4x16x2048x2048, .f32⟩
  | .hbm, ⟨16, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Softmax attention along one row, over the extended reals, in the two arrangements the two programs compute.

  A row is given by its scores `s j` (the inner products of one query with every key) and by one column `w j` of the
  values. The plain arrangement exponentiates the scores divided by 8, normalises by the reciprocal of the row's sum
  (started from the zero word), and contracts with the column. The shifted arrangement multiplies the scores by the
  word of 1/8, subtracts the row's maximum (the fold of `max` from the word of -∞) before exponentiating, normalises
  the shifted exponentials by the reciprocal of THEIR sum, and contracts with the column from the other side. On real
  scores the two are one number: the common factor `exp (-maximum)` cancels between an exponential and the sum.
-/
import Mathlib.Algebra.BigOperators.Fin
import Idealize.ShloMosaic.PureOps.Ideal

noncomputable section

namespace Cert.Attn

open Idealize.ShloMosaic

/-- The plain arrangement: `∑ j, ((1 / (0 + ∑ j', exp (s j' / 8))) * exp (s j / 8)) * w j`, the literals as their words. -/
def refRow {n : ℕ} (s w : Fin n → EReal) : EReal :=
  ∑ j : Fin n,
    (Ideal.div (Ideal.ofBits .f32 0x3F800000#32)
        (Ideal.ofBits .f32 0x00000000#32 + ∑ j' : Fin n, Ideal.exp (Ideal.div (s j') (Ideal.ofBits .f32 0x41000000#32)))
      * Ideal.exp (Ideal.div (s j) (Ideal.ofBits .f32 0x41000000#32))) * w j

/-- The row's maximum of the scaled scores `s j * (1/8)`, as the fold of `max` from the word of -∞. -/
def rowMax {n : ℕ} (s : Fin n → EReal) : EReal :=
  (Finset.univ : Finset (Fin n)).fold max (Ideal.ofBits .f32 0xFF800000#32) (fun j => s j * Ideal.ofBits .f32 0x3E000000#32)

/-- The shifted arrangement: `∑ j, w j * (exp (s j * (1/8) - M) * (1 / ∑ j', exp (s j' * (1/8) - M)))`, `M` the row's maximum. -/
def kerRow {n : ℕ} (s w : Fin n → EReal) : EReal :=
  ∑ j : Fin n,
    w j * (Ideal.exp (s j * Ideal.ofBits .f32 0x3E000000#32 - rowMax s)
      * Ideal.div (Ideal.ofBits .f32 0x3F800000#32)
          (∑ j' : Fin n, Ideal.exp (s j' * Ideal.ofBits .f32 0x3E000000#32 - rowMax s)))

/-- The 4 × 16 heads are numbered row-major: head `(b, h)` is number `16 b + h`. -/
theorem head_lt (b : Fin 4) (h : Fin 16) : b.val * 16 + h.val < 64 := by
  have := b.isLt; have := h.isLt; omega

/-- The flat number of head `(b, h)`. -/
def head (b : Fin 4) (h : Fin 16) : Fin 64 := ⟨b.val * 16 + h.val, head_lt b h⟩

end Cert.Attn

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibRowMax.lean ====
/-
  The maximum along the rows of an `[a, b]` array of extended reals, read at a row, over any extents: the vector
  reduction `multi_reduction <maximumf>` over axis 1 and the host's one-operand `reduce` with a `maximum` body over
  axis 1 are both, at row `r`, the fold of `max` from the initial value over the row's `b` entries (`max` is
  commutative and associative, so the order the definitions fold in does not matter).
-/
import Idealize.ShloMosaic.Lib.ValueIdx
import Idealize.ShloMosaic.PureOps.Ideal.Laws

noncomputable section

namespace Cert.RowMax

open Idealize.ShloMosaic Idealize.ShloMosaic.ValueIdx

/-- The index of an `[a, b]` array that drops to row `r` with coordinate `k` on the reduced axis is `(r, k)`. -/
theorem lift_row {a b : ℕ} (h : (⟨2, ![a, b]⟩ : Shape).Reduces [1] ⟨1, ![a]⟩) (r : Fin a)
    (k : Fin ((⟨2, ![a, b]⟩ : Shape).size 1)) : h.lift (ix1 r) k = ix2 r k := by
  funext c
  apply Fin.ext
  match c with
  | ⟨0, _⟩ => rfl
  | ⟨1, _⟩ => rfl

/-- The vector reduction `multi_reduction <maximumf>` of an `[a, b]` array along axis 1, from the word of -∞, is at row
    `r` the fold of `max` from -∞ over that row's `b` entries. -/
theorem multiReduction_rowMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) := by
  refine (Ideal.multiReduction_maximumf_single v 0xFF800000#32 h hφ hacc (ix1 r)).trans ?_
  exact congrArg (fun f => Finset.fold max (Ideal.ofBits .f32 0xFF800000#32) f Finset.univ)
    (funext fun k => congrArg v (lift_row h r k))

/-- The host's `reduce` of an `[a, b]` array along axis 1 with a `maximum` body is at row `r` the fold of `max` from the
    initial value over that row's `b` entries. -/
theorem hostReduce_rowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  exact congrArg (fun f => Finset.fold max (init (Shape.Idx.first hu)) f Finset.univ)
    (funext fun k => congrArg x (lift_row h r k))

end Cert.RowMax

end
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.LibCross.lean ====
/-
  A matrix product that contracts the FIRST axis of its left operand against the LAST axis of its right operand, over
  the extended reals and over arbitrary extents: for a `[K, R]` array `g` and an `[N, K]` array `h` the entry `(p, q)` of
  `gᵀ · hᵀ` is `∑ s, g s p · h q s`. Operands of any two float formats (over the extended reals a format is only a label).
-/
import Idealize.ShloMosaic.Lib.Pipeline.Value
import Idealize.ShloMosaic.Lib.ValueIdx
import Idealize.ShloMosaic.PureOps.Ideal.Laws

noncomputable section

namespace Cert.Cross

open Idealize.ShloMosaic Idealize.ShloMosaic.ValueIdx

/-- A matrix product into a zero accumulator that contracts axis 0 of the left operand with axis 1 of the right one,
    read at `(p, q)`: the sum over `s` of `g s p · h q s`. The four hypotheses say which operand coordinates the
    dimension numbers pick. -/
theorem matmul_first_last {K R N : ℕ} {φ₁ φ₂ : FTy} (d : DotDims ⟨2, ![K, R]⟩ ⟨2, ![N, K]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (j 1).val)
    (hr1 : ∀ (j : (⟨2, ![R, N]⟩ : Shape).Idx) (q : d.contr.Idx), (d.rhsIdx j q 1).val = (q ⟨0, by omega⟩).val)
    (g : FVec Ideal ⟨2, ![K, R]⟩ φ₁) (h : FVec Ideal ⟨2, ![N, K]⟩ φ₂) (p : Fin R) (q : Fin N) :
    matmul d none g h (constant (F := Ideal) ⟨2, ![R, N]⟩ .f32 0x00000000#32) (ix2 p q) = ∑ s : Fin K, g (ix2 s p) * h (ix2 q s) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Cross

end
-- ==== Proof.Payload.lean ====
/-
  The kernel body's arithmetic read at an index, over the extended reals.

  The body takes a block of 512 queries `x0`, the 2048 keys `x1` and the 2048 values `x2` of one head (each with a
  leading unit axis) and stores the `[1, 64, 512]` block whose entry `(0, d, r)` is the softmax-weighted sum of the
  values' column `d` for query `r`, in the shifted arrangement: scores `∑ e, x0 r e · x1 j e`, scaled by the word of
  1/8, the row maximum subtracted, exponentiated, normalised by the reciprocal of the row sum, and contracted with the
  values from the left. The stages are named below (scaled scores, row maximum as a column, exponentials, reciprocal
  column, weights), each with its reading at `(r, j)`; the body's payload is their composition by unfolding.
-/
import proofs.«110083_j16724602651111_2_alg».proof.Proof.Spec
import proofs.«110083_j16724602651111_2_alg».proof.Proof.LibKeepdims
import proofs.«110083_j16724602651111_2_alg».proof.Proof.LibRowMax
import proofs.«110083_j16724602651111_2_alg».proof.Proof.LibContract0
import proofs.«110083_j16724602651111_2_alg».proof.Proof.LibCross
import proofs.«110083_j16724602651111_2_alg».proof.Proof.Gen.KernelIdeal.Skeleton
import Idealize.ShloMosaic.Lib.ValueLayout

noncomputable section

namespace Cert.Attn.Payload

open Idealize.ShloMosaic Idealize.ShloMosaic.ValueIdx Cert.KernelIdeal Cert.KernelIdeal.Gen

variable {F : FTy → Type} [FloatOps F]

/-! ## The stages -/

/-- The scaled scores: `(x0 · x1ᵀ) * (1/8)`, an `[512, 2048]` array. -/
def scaled (x0 : Vec F S1x512x64 .bf16) (x1 : Vec F S1x2048x64 .bf16) : FVec F S512x2048 .f32 :=
  mulf (matmul dot_S512x64_S64x2048_S512x2048_1_0_0_1_n_n none (shapeCast S512x64 x0 shapeCasts_S1x512x64_S512x64)
      (transpose S64x2048 [1, 0] (shapeCast S2048x64 x1 shapeCasts_S1x2048x64_S2048x64) transposes_S2048x64_p1_0_S64x2048)
      (constant S512x2048 .f32 0x00000000#32))
    (broadcast S512x2048 (Scalar.ofBits .f32 0x3E000000#32))

/-- Each row's maximum, spread along the row. -/
def rowMaxCol (S : FVec F S512x2048 .f32) : FVec F S512x2048 .f32 :=
  broadcastTo S512x2048 (shapeCast S512x1 (multiReduction .maximumf [1] S512 S 0xFF800000#32 reduces_S512x2048_S512 (.inl rfl) rfl)
    shapeCasts_S512_S512x1) broadcasts_S512x1_S512x2048

/-- The exponentials of the scores less their row's maximum. -/
def expo (S : FVec F S512x2048 .f32) : FVec F S512x2048 .f32 := exp (subf S (rowMaxCol S))

/-- The reciprocal of each row's sum, spread along the row. -/
def recipCol (E : FVec F S512x2048 .f32) : FVec F S512x2048 .f32 :=
  broadcastTo S512x2048 (divf (broadcast S512x1 (Scalar.ofBits .f32 0x3F800000#32))
    (shapeCast S512x1 (multiReduction .add [1] S512 E 0x00000000#32 reduces_S512x2048_S512 (.inl rfl) rfl) shapeCasts_S512_S512x1))
    broadcasts_S512x1_S512x2048

/-- The weights: the exponentials times the reciprocal of their row sum (the change of format kept as printed). -/
def weights (S : FVec F S512x2048 .f32) : FVec F S512x2048 .bf16 :=
  truncf .bf16 (mulf (expo S) (recipCol (expo S))) bitsLt_bf16_f32

/-- The body's payload is the values contracted with the weights of the scaled scores, with a unit axis put in front. -/
theorem pay_eq (x0 : Vec F S1x512x64 .bf16) (x1 x2 : Vec F S1x2048x64 .bf16) :
    k0_pay1 x0 x1 x2 = shapeCast S1x64x512 (matmul dot_S2048x64_S512x2048_S64x512_0_1_1_0_n_n none
      (shapeCast S2048x64 x2 shapeCasts_S1x2048x64_S2048x64) (weights (scaled x0 x1)) (constant S64x512 .f32 0x00000000#32))
      shapeCasts_S64x512_S1x64x512 := rfl

/-! ## The two products' operand coordinates -/

theorem qk_l0 (j : S512x2048.Idx) (q : dot_S512x64_S64x2048_S512x2048_1_0_0_1_n_n.contr.Idx) :
    (dot_S512x64_S64x2048_S512x2048_1_0_0_1_n_n.lhsIdx j q 0).val = (j 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem qk_l1 (j : S512x2048.Idx) (q : dot_S512x64_S64x2048_S512x2048_1_0_0_1_n_n.contr.Idx) :
    (dot_S512x64_S64x2048_S512x2048_1_0_0_1_n_n.lhsIdx j q 1).val = (q ⟨0, by decide⟩).val :=
  dot_S512x64_S64x2048_S512x2048_1_0_0_1_n_n.lhsIdx_val_of_single rfl j q
theorem qk_r0 (j : S512x2048.Idx) (q : dot_S512x64_S64x2048_S512x2048_1_0_0_1_n_n.contr.Idx) :
    (dot_S512x64_S64x2048_S512x2048_1_0_0_1_n_n.rhsIdx j q 0).val = (q ⟨0, by decide⟩).val :=
  dot_S512x64_S64x2048_S512x2048_1_0_0_1_n_n.rhsIdx_val_of_single rfl j q
theorem qk_r1 (j : S512x2048.Idx) (q : dot_S512x64_S64x2048_S512x2048_1_0_0_1_n_n.contr.Idx) :
    (dot_S512x64_S64x2048_S512x2048_1_0_0_1_n_n.rhsIdx j q 1).val = (j 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

theorem av_l0 (j : S64x512.Idx) (q : dot_S2048x64_S512x2048_S64x512_0_1_1_0_n_n.contr.Idx) :
    (dot_S2048x64_S512x2048_S64x512_0_1_1_0_n_n.lhsIdx j q 0).val = (q ⟨0, by decide⟩).val :=
  dot_S2048x64_S512x2048_S64x512_0_1_1_0_n_n.lhsIdx_val_of_single rfl j q
theorem av_l1 (j : S64x512.Idx) (q : dot_S2048x64_S512x2048_S64x512_0_1_1_0_n_n.contr.Idx) :
    (dot_S2048x64_S512x2048_S64x512_0_1_1_0_n_n.lhsIdx j q 1).val = (j 0).val := by
  unfold DotDims.lhsIdx
  rw [dif_neg (show ¬(1 : Fin S2048x64.rank) ∈ dot_S2048x64_S512x2048_S64x512_0_1_1_0_n_n.lhsBatch by decide),
    dif_pos (show (1 : Fin S2048x64.rank) ∈ dot_S2048x64_S512x2048_S64x512_0_1_1_0_n_n.lhsNonContracting by decide)]
  rfl
theorem av_r0 (j : S64x512.Idx) (q : dot_S2048x64_S512x2048_S64x512_0_1_1_0_n_n.contr.Idx) :
    (dot_S2048x64_S512x2048_S64x512_0_1_1_0_n_n.rhsIdx j q 0).val = (j 1).val := by
  unfold DotDims.rhsIdx
  rw [dif_neg (show ¬(0 : Fin S512x2048.rank) ∈ dot_S2048x64_S512x2048_S64x512_0_1_1_0_n_n.rhsBatch by decide),
    dif_pos (show (0 : Fin S512x2048.rank) ∈ dot_S2048x64_S512x2048_S64x512_0_1_1_0_n_n.rhsNonContracting by decide)]
  rfl
theorem av_r1 (j : S64x512.Idx) (q : dot_S2048x64_S512x2048_S64x512_0_1_1_0_n_n.contr.Idx) :
    (dot_S2048x64_S512x2048_S64x512_0_1_1_0_n_n.rhsIdx j q 1).val = (q ⟨0, by decide⟩).val :=
  dot_S2048x64_S512x2048_S64x512_0_1_1_0_n_n.rhsIdx_val_of_single rfl j q

/-! ## The stages read at an index, over the extended reals -/

/-- A scalar word on the scalar unit is the word's extended real. -/
theorem scalar_word (b : BitVec 32) : (Scalar.ofBits (F := Ideal) .f32 b) = Ideal.ofBits .f32 b := rfl

/-- The scaled scores at `(r, j)`: the inner product of query `r` with key `j`, times the word of 1/8. -/
theorem scaled_apply (x0 : Vec Ideal S1x512x64 .bf16) (x1 : Vec Ideal S1x2048x64 .bf16) (r : Fin 512) (j : Fin 2048) :
    scaled (F := Ideal) x0 x1 (ix2 r j)
      = (∑ e : Fin 64, x0 (ix3 (0 : Fin 1) r e) * x1 (ix3 (0 : Fin 1) j e)) * Ideal.ofBits .f32 0x3E000000#32 := by
  unfold scaled
  refine congrArg (· * Ideal.ofBits .f32 0x3E000000#32) ?_
  refine (Cert.Contract0.matmul_rows dot_S512x64_S64x2048_S512x2048_1_0_0_1_n_n rfl rfl qk_l0 qk_l1 qk_r0 qk_r1 _ _ r j).trans ?_
  refine Finset.sum_congr rfl fun e _ => ?_
  rw [shapeCast_1ab_ab_apply, transpose_ix2_apply, shapeCast_1ab_ab_apply]

/-- The row maximum spread along the row reads, anywhere in row `r`, the fold of `max` from the word of -∞ over the row. -/
theorem rowMaxCol_apply (S : FVec Ideal S512x2048 .f32) (r : Fin 512) (j : Fin 2048) :
    rowMaxCol (F := Ideal) S (ix2 r j)
      = (Finset.univ : Finset (Fin 2048)).fold max (Ideal.ofBits .f32 0xFF800000#32) (fun k => S (ix2 r k)) := by
  unfold rowMaxCol
  refine (Cert.Keepdims.broadcastTo_a1_ab_apply _ _ r j).trans ?_
  refine (Cert.Keepdims.shapeCast_a_a1_apply _ _ r (0 : Fin 1)).trans ?_
  exact Cert.RowMax.multiReduction_rowMax_apply S _ _ _ r

/-- The exponentials at `(r, j)`. -/
theorem expo_apply (S : FVec Ideal S512x2048 .f32) (r : Fin 512) (j : Fin 2048) :
    expo (F := Ideal) S (ix2 r j)
      = Ideal.exp (S (ix2 r j) - (Finset.univ : Finset (Fin 2048)).fold max (Ideal.ofBits .f32 0xFF800000#32) (fun k => S (ix2 r k))) := by
  unfold expo
  exact congrArg (fun m => Ideal.exp (S (ix2 r j) - m)) (rowMaxCol_apply S r j)

/-- The reciprocal column spread along the row reads, anywhere in row `r`, the word of 1 divided by the row's sum. -/
theorem recipCol_apply (E : FVec Ideal S512x2048 .f32) (r : Fin 512) (j : Fin 2048) :
    recipCol (F := Ideal) E (ix2 r j) = Ideal.div (Ideal.ofBits .f32 0x3F800000#32) (∑ k : Fin 2048, E (ix2 r k)) := by
  unfold recipCol
  refine (Cert.Keepdims.broadcastTo_a1_ab_apply _ _ r j).trans ?_
  refine congrArg (Ideal.div (Ideal.ofBits .f32 0x3F800000#32)) ?_
  refine (Cert.Keepdims.shapeCast_a_a1_apply _ _ r (0 : Fin 1)).trans ?_
  exact Cert.Keepdims.rowSum_apply E _ _ _ r

/-- The weights at `(r, j)`: the shifted exponential times the reciprocal of the row's sum of shifted exponentials. -/
theorem weights_apply (S : FVec Ideal S512x2048 .f32) (r : Fin 512) (j : Fin 2048) :
    weights (F := Ideal) S (ix2 r j)
      = Ideal.exp (S (ix2 r j) - (Finset.univ : Finset (Fin 2048)).fold max (Ideal.ofBits .f32 0xFF800000#32) (fun k => S (ix2 r k)))
        * Ideal.div (Ideal.ofBits .f32 0x3F800000#32)
            (∑ k' : Fin 2048, Ideal.exp (S (ix2 r k') - (Finset.univ : Finset (Fin 2048)).fold max (Ideal.ofBits .f32 0xFF800000#32) (fun k => S (ix2 r k)))) := by
  unfold weights
  show expo (F := Ideal) S (ix2 r j) * recipCol (F := Ideal) (expo (F := Ideal) S) (ix2 r j) = _
  rw [expo_apply, recipCol_apply]
  simp only [expo_apply]

/-! ## The payload at an index -/

/-- The stored block at `(u, d, r)`: the shifted arrangement of row `r`'s scores against the values' column `d`. -/
theorem pay_apply (x0 : Vec Ideal S1x512x64 .bf16) (x1 x2 : Vec Ideal S1x2048x64 .bf16) (u : Fin 1) (d : Fin 64) (r : Fin 512) :
    k0_pay1 (F := Ideal) x0 x1 x2 (ix3 u d r)
      = Cert.Attn.kerRow (fun j : Fin 2048 => ∑ e : Fin 64, x0 (ix3 (0 : Fin 1) r e) * x1 (ix3 (0 : Fin 1) j e))
          (fun j : Fin 2048 => x2 (ix3 (0 : Fin 1) j d)) := by
  rw [pay_eq]
  refine (shapeCast_ab_1ab_apply _ _ u d r).trans ?_
  refine (Cert.Cross.matmul_first_last dot_S2048x64_S512x2048_S64x512_0_1_1_0_n_n rfl rfl av_l0 av_l1 av_r0 av_r1 _ _ d r).trans ?_
  unfold Cert.Attn.kerRow Cert.Attn.rowMax
  refine Finset.sum_congr rfl fun j _ => ?_
  rw [shapeCast_1ab_ab_apply, weights_apply]
  simp only [scaled_apply]

end Cert.Attn.Payload

end
-- ==== Proof.Blocks.lean ====
/-
  From the blocks the grid points write back to the whole output array of the kernel's region.

  The region's output is an `[64, 64, 2048]` array (head, value column, query). Grid point `t = (head, tile)` writes
  back the `[1, 64, 512]` block at block index `(head, 0, tile)`, computed from the head's 512 queries of that tile
  (rows `512·tile …` of the `[64, 2048, 64]` query array) and from all of the head's keys and values. So every block is
  the restriction of ONE function of the three input arrays: at `(head, d, i)` the shifted softmax arrangement of query
  `i`'s scores against the values' column `d`. The 64 × 4 blocks tile the array, hence the array ends holding that
  function.
-/
import proofs.«110083_j16724602651111_2_alg».proof.Proof.Spec
import proofs.«110083_j16724602651111_2_alg».proof.Proof.Payload
import proofs.«110083_j16724602651111_2_alg».proof.Proof.Gen.KernelIdeal.Frame
import Idealize.ShloMosaic.Lib.Pipeline.Value
import Idealize.ShloMosaic.Lib.ValueIdx

noncomputable section

namespace Cert.Attn.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-! ## The whole-array function -/

/-- Head `b`, value column `d`, query `i`: the shifted arrangement of the scores of query `i` against every key of the
    head, contracted with column `d` of the head's values. -/
def GkAt (Q K W : S64x2048x64.Idx → EReal) (b : Fin 64) (d : Fin 64) (i : Fin 2048) : EReal :=
  Cert.Attn.kerRow (fun j : Fin 2048 => ∑ e : Fin 64, Q (ix3 b i e) * K (ix3 b j e)) (fun j : Fin 2048 => W (ix3 b j d))

/-- The same as an `[64, 64, 2048]` array. -/
def Gk (Q K W : S64x2048x64.Idx → EReal) : S64x64x2048.Idx → EReal := fun o =>
  GkAt Q K W ⟨(o 0).val, (o 0).isLt⟩ ⟨(o 1).val, (o 1).isLt⟩ ⟨(o 2).val, (o 2).isLt⟩

theorem Gk_ix3 (Q K W : S64x2048x64.Idx → EReal) (b : Fin 64) (d : Fin 64) (i : Fin 2048) :
    Gk Q K W (ix3 b d i) = GkAt Q K W b d i := rfl

/-! ## The index maps over the grid -/

/-- The queries' window moves with the output's head and tile; the keys' and the values' with its head alone; the
    output's block index on the value-column axis is 0. -/
theorem idx_facts : ∀ t : Fin cfg0.N,
    win0_0.index t (0 : Fin 3) = win0_3.index t (0 : Fin 3)
    ∧ win0_0.index t (1 : Fin 3) = win0_3.index t (2 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (1 : Fin 3) = 0 :=
  (by decide +kernel : ∀ t : Fin grid0.N, _)

/-- Every (head, tile) is some point's output block index. -/
theorem idx_onto : ∀ (q0 : Fin 64) (q2 : Fin 4), ∃ t : Fin cfg0.N, win0_3.index t = ![q0.val, 0, q2.val] :=
  (by decide +kernel : ∀ (q0 : Fin 64) (q2 : Fin 4), ∃ t : Fin grid0.N, win0_3.index t = ![q0.val, 0, q2.val])

/-! ## The input blocks as entries of the input arrays -/

/-- An entry of the queries' block at point `t` is the query array's entry at block index × block size + the entry's
    own coordinate, axis by axis. -/
theorem q_block (c : Dev nD) (t : Fin cfg0.N) (x : S1x512x64.Idx) (k : S64x2048x64.Idx)
    (h0 : (k 0).val = win0_0.index t (0 : Fin 3) * 1 + 1 * (x 0).val)
    (h1 : (k 1).val = win0_0.index t (1 : Fin 3) * 512 + 1 * (x 1).val)
    (h2 : (k 2).val = win0_0.index t (2 : Fin 3) * 64 + 1 * (x 2).val) :
    (iblk m c 0 t : Vec Ideal S1x512x64 .bf16) x = (V m c main_v1 : S64x2048x64.Idx → EReal) k := by
  unfold iblk
  rw [View.read_apply]
  show V m c main_v1 _ = V m c main_v1 _
  congr 1
  funext a
  apply Fin.ext
  match a with
  | ⟨0, _⟩ => show win0_0.index t (0 : Fin 3) * 1 + 1 * (x 0).val = (k 0).val; rw [h0]
  | ⟨1, _⟩ => show win0_0.index t (1 : Fin 3) * 512 + 1 * (x 1).val = (k 1).val; rw [h1]
  | ⟨2, _⟩ => show win0_0.index t (2 : Fin 3) * 64 + 1 * (x 2).val = (k 2).val; rw [h2]

/-- The same for the keys' block. -/
theorem k_block (c : Dev nD) (t : Fin cfg0.N) (x : S1x2048x64.Idx) (k : S64x2048x64.Idx)
    (h0 : (k 0).val = win0_1.index t (0 : Fin 3) * 1 + 1 * (x 0).val)
    (h1 : (k 1).val = win0_1.index t (1 : Fin 3) * 2048 + 1 * (x 1).val)
    (h2 : (k 2).val = win0_1.index t (2 : Fin 3) * 64 + 1 * (x 2).val) :
    (iblk m c 1 t : Vec Ideal S1x2048x64 .bf16) x = (V m c main_v3 : S64x2048x64.Idx → EReal) k := by
  unfold iblk
  rw [View.read_apply]
  show V m c main_v3 _ = V m c main_v3 _
  congr 1
  funext a
  apply Fin.ext
  match a with
  | ⟨0, _⟩ => show win0_1.index t (0 : Fin 3) * 1 + 1 * (x 0).val = (k 0).val; rw [h0]
  | ⟨1, _⟩ => show win0_1.index t (1 : Fin 3) * 2048 + 1 * (x 1).val = (k 1).val; rw [h1]
  | ⟨2, _⟩ => show win0_1.index t (2 : Fin 3) * 64 + 1 * (x 2).val = (k 2).val; rw [h2]

/-- The same for the values' block. -/
theorem v_block (c : Dev nD) (t : Fin cfg0.N) (x : S1x2048x64.Idx) (k : S64x2048x64.Idx)
    (h0 : (k 0).val = win0_2.index t (0 : Fin 3) * 1 + 1 * (x 0).val)
    (h1 : (k 1).val = win0_2.index t (1 : Fin 3) * 2048 + 1 * (x 1).val)
    (h2 : (k 2).val = win0_2.index t (2 : Fin 3) * 64 + 1 * (x 2).val) :
    (iblk m c 2 t : Vec Ideal S1x2048x64 .bf16) x = (V m c main_v5 : S64x2048x64.Idx → EReal) k := by
  unfold iblk
  rw [View.read_apply]
  show V m c main_v5 _ = V m c main_v5 _
  congr 1
  funext a
  apply Fin.ext
  match a with
  | ⟨0, _⟩ => show win0_2.index t (0 : Fin 3) * 1 + 1 * (x 0).val = (k 0).val; rw [h0]
  | ⟨1, _⟩ => show win0_2.index t (1 : Fin 3) * 2048 + 1 * (x 1).val = (k 1).val; rw [h1]
  | ⟨2, _⟩ => show win0_2.index t (2 : Fin 3) * 64 + 1 * (x 2).val = (k 2).val; rw [h2]

/-! ## What a point writes back -/

/-- Point `t` writes back block `t` of the whole-array function of the three input arrays as the region finds them. -/
theorem flushed_eq (c : Dev nD) (t : Fin cfg0.N) :
    (dats m 0 c).flushed 3 t
      = ((cfg0.win 3).blk t).view.read (Elt Ideal) (Gk (V m c main_v1) (V m c main_v3) (V m c main_v5)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨e0, e1, e2, e3, e4, e5, e6, e7, e8, e9⟩ := idx_facts t
  funext y
  obtain ⟨u, d, r, rfl⟩ : ∃ (u : Fin 1) (d : Fin 64) (r : Fin 512), y = ix3 u d r := ⟨y 0, y 1, y 2, eq_ix3 y⟩
  have hu : u.val = 0 := by have := u.isLt; omega
  show k0_pay1 (F := Ideal) (iblk m c 0 t) (iblk m c 1 t) (iblk m c 2 t) (ix3 u d r)
    = Gk (V m c main_v1) (V m c main_v3) (V m c main_v5) (((cfg0.win 3).blk t).view.emb (ix3 u d r))
  refine (Cert.Attn.Payload.pay_apply (iblk m c 0 t) (iblk m c 1 t) (iblk m c 2 t) u d r).trans ?_
  have o0 : ((((cfg0.win 3).blk t).view.emb (ix3 u d r)) 0).val = win0_3.index t (0 : Fin 3) * 1 + 1 * u.val := rfl
  have o1 : ((((cfg0.win 3).blk t).view.emb (ix3 u d r)) 1).val = win0_3.index t (1 : Fin 3) * 64 + 1 * d.val := rfl
  have o2 : ((((cfg0.win 3).blk t).view.emb (ix3 u d r)) 2).val = win0_3.index t (2 : Fin 3) * 512 + 1 * r.val := rfl
  unfold Gk GkAt
  refine congrArg₂ Cert.Attn.kerRow (funext fun j => Finset.sum_congr rfl fun e _ => ?_) (funext fun j => ?_)
  · refine congrArg₂ (· * ·) ?_ ?_
    · refine q_block m c t (ix3 (0 : Fin 1) r e) _ ?_ ?_ ?_
      · show ((((cfg0.win 3).blk t).view.emb (ix3 u d r)) 0).val = win0_0.index t (0 : Fin 3) * 1 + 1 * (0 : Fin 1).val
        rw [o0, e0, hu]; rfl
      · show ((((cfg0.win 3).blk t).view.emb (ix3 u d r)) 2).val = win0_0.index t (1 : Fin 3) * 512 + 1 * r.val
        rw [o2, e1]
      · show e.val = win0_0.index t (2 : Fin 3) * 64 + 1 * e.val
        rw [e2]; omega
    · refine k_block m c t (ix3 (0 : Fin 1) j e) _ ?_ ?_ ?_
      · show ((((cfg0.win 3).blk t).view.emb (ix3 u d r)) 0).val = win0_1.index t (0 : Fin 3) * 1 + 1 * (0 : Fin 1).val
        rw [o0, e3, hu]; rfl
      · show j.val = win0_1.index t (1 : Fin 3) * 2048 + 1 * j.val
        rw [e4]; omega
      · show e.val = win0_1.index t (2 : Fin 3) * 64 + 1 * e.val
        rw [e5]; omega
  · refine v_block m c t (ix3 (0 : Fin 1) j d) _ ?_ ?_ ?_
    · show ((((cfg0.win 3).blk t).view.emb (ix3 u d r)) 0).val = win0_2.index t (0 : Fin 3) * 1 + 1 * (0 : Fin 1).val
      rw [o0, e6, hu]; rfl
    · show j.val = win0_2.index t (1 : Fin 3) * 2048 + 1 * j.val
      rw [e7]; omega
    · show ((((cfg0.win 3).blk t).view.emb (ix3 u d r)) 1).val = win0_2.index t (2 : Fin 3) * 64 + 1 * d.val
      rw [o1, e9, e8]

/-! ## The blocks tile the array -/

/-- An index of the output array is in point `t`'s block iff each coordinate is in the block's range on its axis. -/
theorem mem_blk (t : Fin cfg0.N) (i : S64x64x2048.Idx) :
    i ∈ ((cfg0.win 3).blk t).view.set ↔ ∀ a : Fin 3, win0_3.index t a * S1x64x512.size a ≤ (i a).val
      ∧ (i a).val < win0_3.index t a * S1x64x512.size a + S1x64x512.size a := by
  show i ∈ ((View.whole main_v6).slice (win0_3.rect t)).set ↔ _
  rw [View.set_slice_whole, Rect.mem_set_unit]
  exact Iff.rfl

/-- Every index of the output array is in the block of the point of its head and of its query's tile. -/
theorem cover (i : S64x64x2048.Idx) :
    ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 2048 := (i 2).isLt
  obtain ⟨t, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 64 ≤ (i 1).val ∧ (i 1).val < win0_3.index t (1 : Fin 3) * 64 + 64
    omega
  | ⟨2, _⟩ =>
    show win0_3.index t (2 : Fin 3) * 512 ≤ (i 2).val ∧ (i 2).val < win0_3.index t (2 : Fin 3) * 512 + 512
    omega

/-! ## The array after the region -/

/-- The region's output array ends holding the whole-array function of the three input arrays. -/
theorem final (c : Dev nD) :
    (dats m 0 c).arrAt 3 cfg0.N = Gk (V m c main_v1) (V m c main_v3) (V m c main_v5) :=
  (dats m 0 c).arrAt_eq_of_cover 3 (Gk (V m c main_v1) (V m c main_v3) (V m c main_v5))
    (fun t _ => flushed_eq m c t) cover

end Cert.Attn.Blocks

end
-- ==== Proof.HostIn.lean ====
/-
  What the kernel's three input arrays hold when its region is entered, read at an index.

  Before the region each argument, an array of shape [4, 16, 2048, 64], is reshaped to [64, 2048, 64] and then narrowed
  to the 16-bit format. Over the extended reals the narrowing changes nothing, and a reshape keeps row-major positions:
  the entry `(b * 16 + h, i, e)` of the reshaped array sits at position `((b * 16 + h) * 2048 + i) * 64 + e`, which is
  the position of the entry `(b, h, i, e)` of the argument. So the array the region finds holds, at
  `(b * 16 + h, i, e)`, the argument's entry `(b, h, i, e)`.
-/
import proofs.«110083_j16724602651111_2_alg».proof.Proof.Spec
import proofs.«110083_j16724602651111_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.Tactic

noncomputable section

namespace Cert.Attn.HostIn

open Idealize.ShloMosaic Idealize.ShloMosaic.TcCoe Idealize.ShloMosaic.ValueIdx Idealize.SL.Sem Cert.KernelIdeal Cert.KernelIdeal.Gen

/-- An array of shape [4, 16, 2048, 64] reshaped to [64, 2048, 64] and narrowed holds, at `(b * 16 + h, i, e)`, the
    array's entry `(b, h, i, e)`: the two indices have the same row-major position. -/
theorem read_in (x : S4x16x2048x64.Idx → EReal) (hc : S4x16x2048x64.ShapeCasts S64x2048x64)
    (hb : FTy.bits .bf16 < FTy.bits .f32) (b : Fin 4) (h : Fin 16) (i : Fin 2048) (e : Fin 64) :
    (truncf .bf16 (shapeCast S64x2048x64 x hc : FVec Ideal S64x2048x64 .f32) hb : FVec Ideal S64x2048x64 .bf16)
        (ix3 (Cert.Attn.head b h) i e)
      = x (ix4 b h i e) := by
  refine (truncf_apply (ψ := .bf16) (shapeCast S64x2048x64 x hc : FVec Ideal S64x2048x64 .f32) hb _).trans ?_
  refine shapeCast_apply x hc _ _ ?_
  rw [Shape.rowMajor_val_four, Shape.rowMajor_val_three]
  rfl

variable (m : (ℓ : Loc nD τ sig) → Buf (Elt Ideal) ℓ)

/-- The first input array (the queries) as the region finds it. -/
theorem V_q (c : Dev nD) (b : Fin 4) (h : Fin 16) (i : Fin 2048) (e : Fin 64) :
    (V m c main_v1 : S64x2048x64.Idx → EReal) (ix3 (Cert.Attn.head b h) i e)
      = (m ((c : Thread nD τ).loc main_arg0) : S4x16x2048x64.Idx → EReal) (ix4 b h i e) := by
  have e0 : (V m c main_v1 : S64x2048x64.Idx → EReal)
      = truncf .bf16 (shapeCast S64x2048x64 (m ((c : Thread nD τ).loc main_arg0) : S4x16x2048x64.Idx → EReal)
          shapeCasts_S4x16x2048x64_S64x2048x64 : FVec Ideal S64x2048x64 .f32) bitsLt_bf16_f32 := by
    show StableHlo.after hostOps0 (fun b => m (c, b)) (Proc.devRef .tc main_v1) = _
    after_results
    rfl
  exact (congrFun e0 _).trans (read_in _ _ _ b h i e)

/-- The second input array (the keys) as the region finds it. -/
theorem V_k (c : Dev nD) (b : Fin 4) (h : Fin 16) (i : Fin 2048) (e : Fin 64) :
    (V m c main_v3 : S64x2048x64.Idx → EReal) (ix3 (Cert.Attn.head b h) i e)
      = (m ((c : Thread nD τ).loc main_arg1) : S4x16x2048x64.Idx → EReal) (ix4 b h i e) := by
  have e0 : (V m c main_v3 : S64x2048x64.Idx → EReal)
      = truncf .bf16 (shapeCast S64x2048x64 (m ((c : Thread nD τ).loc main_arg1) : S4x16x2048x64.Idx → EReal)
          shapeCasts_S4x16x2048x64_S64x2048x64 : FVec Ideal S64x2048x64 .f32) bitsLt_bf16_f32 := by
    show StableHlo.after hostOps0 (fun b => m (c, b)) (Proc.devRef .tc main_v3) = _
    after_results
    rfl
  exact (congrFun e0 _).trans (read_in _ _ _ b h i e)

/-- The third input array (the values) as the region finds it. -/
theorem V_v (c : Dev nD) (b : Fin 4) (h : Fin 16) (i : Fin 2048) (e : Fin 64) :
    (V m c main_v5 : S64x2048x64.Idx → EReal) (ix3 (Cert.Attn.head b h) i e)
      = (m ((c : Thread nD τ).loc main_arg2) : S4x16x2048x64.Idx → EReal) (ix4 b h i e) := by
  have e0 : (V m c main_v5 : S64x2048x64.Idx → EReal)
      = truncf .bf16 (shapeCast S64x2048x64 (m ((c : Thread nD τ).loc main_arg2) : S4x16x2048x64.Idx → EReal)
          shapeCasts_S4x16x2048x64_S64x2048x64 : FVec Ideal S64x2048x64 .f32) bitsLt_bf16_f32 := by
    show StableHlo.after hostOps0 (fun b => m (c, b)) (Proc.devRef .tc main_v5) = _
    after_results
    rfl
  exact (congrFun e0 _).trans (read_in _ _ _ b h i e)

end Cert.Attn.HostIn

end
-- ==== Proof.HostOut.lean ====
/-
  The program's result array, read at an index, in terms of what the region leaves in its output array.

  After the region two host operations remain: the region's output, a `[64, 64, 2048]` array indexed by (head, feature,
  position), is recast to `[4, 16, 64, 2048]` — the 64 heads numbered row-major as 4 × 16, head `(b, h)` being number
  `16 b + h` — and its last two axes are then exchanged, giving the `[4, 16, 2048, 64]` result indexed by (b, h, position,
  feature). A transpose read at an index is its operand at the index with the exchanged coordinates; a recast read at an
  index is its operand at the index with the same row-major position, here `((16 b + h) · 64 + d) · 2048 + i` on both
  sides. So the result at `(b, h, i, d)` is the region's output at `(16 b + h, d, i)`.
-/
import proofs.«110083_j16724602651111_2_alg».proof.Proof.Spec
import proofs.«110083_j16724602651111_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.Tactic

noncomputable section

namespace Cert.Attn.HostOut

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- A `[64, 64, 2048]` array recast to `[4, 16, 64, 2048]` and then transposed on its last two axes reads, at
    `(b, h, i, d)`, the array at `(16 b + h, d, i)`: the two row-major positions are the same sum. -/
theorem unflatten_swap_apply {α : Type} (A : S64x64x2048.Idx → α)
    (h1 : S64x64x2048.ShapeCasts S4x16x64x2048) (h2 : S4x16x64x2048.Transposes [0, 1, 3, 2] S4x16x2048x64)
    (b : Fin 4) (h : Fin 16) (i : Fin 2048) (d : Fin 64) :
    transpose S4x16x2048x64 [0, 1, 3, 2] (shapeCast S4x16x64x2048 A h1) h2 (ix4 b h i d)
      = A (ix3 (Cert.Attn.head b h) d i) := by
  refine (transpose_apply [0, 1, 3, 2] (shapeCast S4x16x64x2048 A h1) h2 (ix4 b h i d) (ix4 b h d i)
    (fun c => match c with | ⟨0, _⟩ => rfl | ⟨1, _⟩ => rfl | ⟨2, _⟩ => rfl | ⟨3, _⟩ => rfl)).trans ?_
  refine shapeCast_apply A h1 (ix4 b h d i) (ix3 (Cert.Attn.head b h) d i) ?_
  rw [Shape.rowMajor_val_four, Shape.rowMajor_val_three]
  show ((b.val * 16 + h.val) * 64 + d.val) * 2048 + i.val = ((b.val * 16 + h.val) * 64 + d.val) * 2048 + i.val
  rfl

/-- The result buffer after the two host operations that follow the region, as a whole array: the transpose of the
    recast of the region's output array (the array of window 3 after the last grid point). -/
theorem tail_array (c : Dev nD) :
    (Pipeline.afterTail₀ cfgs (dats m) 0 (V0 m) [hostOps1] c main_v8 : S4x16x2048x64.Idx → EReal)
      = transpose S4x16x2048x64 [0, 1, 3, 2]
          (shapeCast S4x16x64x2048 ((dats m 0 c).arrAt 3 cfg0.N : S64x64x2048.Idx → EReal)
            Cert.KernelIdeal.Gen.shapeCasts_S64x64x2048_S4x16x64x2048)
          Cert.KernelIdeal.Gen.transposes_S4x16x64x2048_S4x16x2048x64_0_1_3_2 := by
  unfold Pipeline.afterTail₀
  show StableHlo.after hostOps1 _ (Proc.devRef .tc main_v8) = _
  after_results
  show transpose S4x16x2048x64 [0, 1, 3, 2]
      (shapeCast S4x16x64x2048
        (Pipeline.withArrays spec0 c (V0 m c) (fun w => (dats m 0 c).arrAt w cfg0.N)
          (Proc.devRef .tc (Pipeline.arrRef spec0 3)))
        Cert.KernelIdeal.Gen.shapeCasts_S64x64x2048_S4x16x64x2048)
      Cert.KernelIdeal.Gen.transposes_S4x16x64x2048_S4x16x2048x64_0_1_3_2 = _
  rw [Pipeline.withArrays_arr spec0 launch0.win.arr_inj c (V0 m c) (fun w => (dats m 0 c).arrAt w cfg0.N) 3]

/-- The result buffer read at `(b, h, i, d)` is the region's output array at `(16 b + h, d, i)`. -/
theorem tail_apply (c : Dev nD) (b : Fin 4) (h : Fin 16) (i : Fin 2048) (d : Fin 64) :
    (Pipeline.afterTail₀ cfgs (dats m) 0 (V0 m) [hostOps1] c main_v8 : S4x16x2048x64.Idx → EReal) (ix4 b h i d)
      = ((dats m 0 c).arrAt 3 cfg0.N : S64x64x2048.Idx → EReal) (ix3 (Cert.Attn.head b h) d i) :=
  (congrFun (tail_array m c) (ix4 b h i d)).trans (unflatten_swap_apply _ _ _ b h i d)

end Cert.Attn.HostOut

end
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib.Algebra.BigOperators.Fin
import Mathlib.Tactic.NormNum
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.SoftmaxLaw.lean ====
/-
  The one algebraic law of softmax attention along a row: on real scores the shifted arrangement (subtract the row's
  maximum before exponentiating, normalise by the sum of the shifted exponentials) and the plain arrangement
  (exponentiate, normalise by the plain sum) give the same extended real, whatever the column of values holds.

  The scores are real, so every exponent, every exponential and every sum is a real number; the row's maximum over a
  nonempty row is real too. Each coefficient of the column is therefore the coercion of a real number, and the two real
  coefficients agree because `exp (a - μ) = exp a / exp μ` and the common factor `exp μ` cancels between the numerator
  and the sum. The column may hold infinities, so the rows are compared term by term and never rearranged.
-/
import Mathlib.Algebra.BigOperators.Fin
import Mathlib.Algebra.Order.BigOperators.Ring.Finset
import Mathlib.Tactic.FieldSimp
import Mathlib.Tactic.Ring
import Mathlib.Tactic.NormNum
import Idealize.ShloMosaic.PureOps.Ideal
import proofs.«110083_j16724602651111_2_alg».proof.Proof.Spec
import proofs.«110083_j16724602651111_2_alg».proof.Proof.LibReal

noncomputable section

namespace Cert.Attn

open Idealize.ShloMosaic

/-! ### The five words -/

/-- The word of one. -/
theorem word_one : Ideal.ofBits .f32 0x3F800000#32 = ((1 : ℝ) : EReal) := by
  simp [Ideal.ofBits, Ideal.ieee, -EReal.coe_mul]; norm_num

/-- The word of zero. -/
theorem word_zero : Ideal.ofBits .f32 0x00000000#32 = 0 := by
  simp [Ideal.ofBits, Ideal.ieee]

/-- The word of eight. -/
theorem word_eight : Ideal.ofBits .f32 0x41000000#32 = ((8 : ℝ) : EReal) := by
  simp [Ideal.ofBits, Ideal.ieee, -EReal.coe_mul]; norm_num

/-- The word of one eighth. -/
theorem word_eighth : Ideal.ofBits .f32 0x3E000000#32 = ((1 / 8 : ℝ) : EReal) := by
  simp [Ideal.ofBits, Ideal.ieee, -EReal.coe_mul]; norm_num

/-- The word of -∞. -/
theorem word_neg_inf : Ideal.ofBits .f32 0xFF800000#32 = ⊥ := by
  simp [Ideal.ofBits, Ideal.ieee]

/-! ### The maximum of a nonempty real row is real -/

/-- The coercion of the reals into the extended reals commutes with `max`. -/
theorem max_coe (x y : ℝ) : max (x : EReal) (y : EReal) = ((max x y : ℝ) : EReal) :=
  (EReal.coe_strictMono.monotone.map_max).symm

/-- The fold of `max` from -∞ over a nonempty set of real numbers is a real number. -/
theorem fold_max_real {ι : Type} (t : Finset ι) (ht : t.Nonempty) (f : ι → ℝ) :
    ∃ μ : ℝ, t.fold max (⊥ : EReal) (fun j => (f j : EReal)) = (μ : EReal) := by
  induction ht using Finset.Nonempty.cons_induction with
  | singleton a => exact ⟨f a, by rw [Finset.fold_singleton]; exact max_bot_right _⟩
  | cons a t ha _ ih =>
    obtain ⟨μ, hμ⟩ := ih
    exact ⟨max (f a) μ, by rw [Finset.fold_cons, hμ, max_coe]⟩

/-- A row of `n > 0` entries is nonempty. -/
theorem univ_nonempty_of_pos {n : ℕ} (hn : 0 < n) : (Finset.univ : Finset (Fin n)).Nonempty :=
  ⟨⟨0, hn⟩, Finset.mem_univ _⟩

/-- The row's maximum of real scores over a nonempty row is a real number. -/
theorem rowMax_real {n : ℕ} (hn : 0 < n) (r : Fin n → ℝ) :
    ∃ μ : ℝ, rowMax (fun j => (r j : EReal)) = (μ : EReal) := by
  obtain ⟨μ, hμ⟩ := fold_max_real Finset.univ (univ_nonempty_of_pos hn) (fun j => r j * (1 / 8))
  refine ⟨μ, ?_⟩
  have e : (fun j : Fin n => ((r j : ℝ) : EReal) * ((1 / 8 : ℝ) : EReal))
      = fun j : Fin n => ((r j * (1 / 8) : ℝ) : EReal) := funext fun j => (EReal.coe_mul _ _).symm
  show (Finset.univ : Finset (Fin n)).fold max (Ideal.ofBits .f32 0xFF800000#32)
      (fun j => ((r j : ℝ) : EReal) * Ideal.ofBits .f32 0x3E000000#32) = (μ : EReal)
  rw [word_neg_inf, word_eighth, e]
  exact hμ

/-! ### Each piece on real arguments -/

/-- A shifted exponential of a real score is the coercion of a real exponential. -/
theorem exp_shift (x μ : ℝ) :
    Ideal.exp ((x : EReal) * ((1 / 8 : ℝ) : EReal) - (μ : EReal)) = ((Real.exp (x * (1 / 8) - μ) : ℝ) : EReal) := by
  rw [← EReal.coe_mul, ← EReal.coe_sub, Ideal.exp_coe]

/-- A plain exponential of a real score divided by eight is the coercion of a real exponential. -/
theorem exp_div_eight (x : ℝ) :
    Ideal.exp (Ideal.div (x : EReal) ((8 : ℝ) : EReal)) = ((Real.exp (x * (1 / 8)) : ℝ) : EReal) := by
  rw [Ideal.div_coe (by norm_num : (8 : ℝ) ≠ 0), ← EReal.coe_mul, Ideal.exp_coe]

/-- One divided by a positive real is the coercion of the real reciprocal. -/
theorem div_one_pos {S : ℝ} (hS : 0 < S) : Ideal.div ((1 : ℝ) : EReal) (S : EReal) = ((1 / S : ℝ) : EReal) := by
  rw [Ideal.div_coe hS.ne', ← EReal.coe_mul, one_mul]

/-- A sum of real exponentials over a nonempty row is positive. -/
theorem sum_exp_pos {n : ℕ} (hn : 0 < n) (a : Fin n → ℝ) : 0 < ∑ j : Fin n, Real.exp (a j) :=
  Finset.sum_pos (fun i _ => Real.exp_pos _) (univ_nonempty_of_pos hn)

/-! ### The identity in the reals -/

/-- The common factor `exp μ` cancels between a shifted exponential and the sum of the shifted exponentials. -/
theorem real_softmax_shift {n : ℕ} (hn : 0 < n) (a : Fin n → ℝ) (μ : ℝ) (j : Fin n) :
    Real.exp (a j - μ) * (1 / ∑ j' : Fin n, Real.exp (a j' - μ))
      = (1 / ∑ j' : Fin n, Real.exp (a j')) * Real.exp (a j) := by
  have h1 : 0 < ∑ j' : Fin n, Real.exp (a j') := sum_exp_pos hn a
  have h2 : ∑ j' : Fin n, Real.exp (a j' - μ) = (∑ j' : Fin n, Real.exp (a j')) / Real.exp μ := by
    rw [Finset.sum_div]; exact Finset.sum_congr rfl fun i _ => Real.exp_sub _ _
  have h3 : 0 < Real.exp μ := Real.exp_pos μ
  rw [h2, Real.exp_sub]
  field_simp

/-! ### The two coefficients -/

/-- The shifted arrangement's coefficient of the column at `j`, on real scores with real maximum `μ`. -/
theorem ker_coeff {n : ℕ} (hn : 0 < n) (r : Fin n → ℝ) (μ : ℝ)
    (hμ : rowMax (fun j => (r j : EReal)) = (μ : EReal)) (j : Fin n) :
    Ideal.exp ((r j : EReal) * Ideal.ofBits .f32 0x3E000000#32 - rowMax (fun j => (r j : EReal)))
        * Ideal.div (Ideal.ofBits .f32 0x3F800000#32)
            (∑ j' : Fin n, Ideal.exp ((r j' : EReal) * Ideal.ofBits .f32 0x3E000000#32 - rowMax (fun j => (r j : EReal))))
      = ((Real.exp (r j * (1 / 8) - μ) * (1 / ∑ j' : Fin n, Real.exp (r j' * (1 / 8) - μ)) : ℝ) : EReal) := by
  have hsum : (∑ j' : Fin n, Ideal.exp ((r j' : EReal) * ((1 / 8 : ℝ) : EReal) - (μ : EReal)))
      = ((∑ j' : Fin n, Real.exp (r j' * (1 / 8) - μ) : ℝ) : EReal) := by
    rw [Cert.LibReal.coe_sum]; exact Finset.sum_congr rfl fun k _ => exp_shift _ _
  rw [hμ, word_eighth, word_one, hsum, exp_shift, div_one_pos (sum_exp_pos hn _), ← EReal.coe_mul]

/-- The plain arrangement's coefficient of the column at `j`, on real scores. -/
theorem ref_coeff {n : ℕ} (hn : 0 < n) (r : Fin n → ℝ) (j : Fin n) :
    Ideal.div (Ideal.ofBits .f32 0x3F800000#32)
        (Ideal.ofBits .f32 0x00000000#32
          + ∑ j' : Fin n, Ideal.exp (Ideal.div (r j' : EReal) (Ideal.ofBits .f32 0x41000000#32)))
        * Ideal.exp (Ideal.div (r j : EReal) (Ideal.ofBits .f32 0x41000000#32))
      = (((1 / ∑ j' : Fin n, Real.exp (r j' * (1 / 8))) * Real.exp (r j * (1 / 8)) : ℝ) : EReal) := by
  have hsum : (∑ j' : Fin n, Ideal.exp (Ideal.div (r j' : EReal) ((8 : ℝ) : EReal)))
      = ((∑ j' : Fin n, Real.exp (r j' * (1 / 8)) : ℝ) : EReal) := by
    rw [Cert.LibReal.coe_sum]; exact Finset.sum_congr rfl fun k _ => exp_div_eight _
  rw [word_zero, word_eight, word_one, zero_add, hsum, exp_div_eight, div_one_pos (sum_exp_pos hn _), ← EReal.coe_mul]

/-! ### The law -/

/-- On real scores and a nonempty row the shifted arrangement equals the plain one, for any column of values. -/
theorem kerRow_eq_refRow {n : ℕ} (hn : 0 < n) (s w : Fin n → EReal) (hs : ∀ j, Cert.LibReal.IsReal (s j)) :
    kerRow s w = refRow s w := by
  choose r hr using hs
  obtain rfl : s = fun j => (r j : EReal) := funext hr
  obtain ⟨μ, hμ⟩ := rowMax_real hn r
  unfold kerRow refRow
  refine Finset.sum_congr rfl fun j _ => ?_
  rw [mul_comm (w j)]
  refine congrArg (· * w j) ?_
  refine (ker_coeff hn r μ hμ j).trans ?_
  refine Eq.trans ?_ (ref_coeff hn r j).symm
  exact congrArg Real.toEReal (real_softmax_shift hn (fun k => r k * (1 / 8)) μ j)

end Cert.Attn

end
-- ==== Proof.RefRow.lean ====
/-
  The reference program read at one output entry.

  The reference computes softmax attention in the plain arrangement: scores are the inner products of a query with
  every key, each score is divided by 8 and exponentiated, the exponentials of a row are summed starting from zero,
  the reciprocal of that sum is spread back over the row and multiplied into the exponentials, and the resulting
  weights are contracted with a column of the values. Reading the stages one after another at the index
  `(b, h, i, ·)` gives, for the output entry `(b, h, i, d)`, exactly the plain arrangement of the row of scores
  `s j = ∑ e, q (b, h, i, e) * k (b, h, j, e)` against the column `w j = v (b, h, j, d)`.

  Each stage lemma below reads one stage at an index built from its coordinates; the only work is identifying the
  composed index functions of the stages with those coordinate-built indices, which holds coordinate by coordinate.
-/
import proofs.«110083_j16724602651111_2_alg».proof.Proof.Spec
import proofs.«110083_j16724602651111_2_alg».proof.Proof.Gen.ReferenceIdeal.Read
import Idealize.ShloMosaic.Lib.ValueIdx

noncomputable section

namespace Cert.Attn.Ref

open Idealize.ShloMosaic Idealize.ShloMosaic.ValueIdx Cert.ReferenceIdeal Cert.ReferenceIdeal.Read

/-- The scores: the entry `(b, h, i, j)` of the first contraction is the inner product of query `i` with key `j`. -/
theorem scores_at (q k : FVec Ideal S4x16x2048x64 .f32) (b : Fin 4) (h : Fin 16) (i j : Fin 2048) :
    val_main_v0 (F := Ideal) q k (ix4 b h i j) = ∑ e : Fin 64, q (ix4 b h i e) * k (ix4 b h j e) := by
  refine (val_main_v0_apply q k _).trans (Finset.sum_congr rfl fun e _ => ?_)
  have e1 : lidx_main_v0 (ix4 b h i j) e = ix4 b h i e := funext fun a => Fin.ext (by
    match a with | ⟨0, _⟩ => rfl | ⟨1, _⟩ => rfl | ⟨2, _⟩ => rfl | ⟨3, _⟩ => rfl)
  have e2 : ridx_main_v0 (ix4 b h i j) e = ix4 b h j e := funext fun a => Fin.ext (by
    match a with | ⟨0, _⟩ => rfl | ⟨1, _⟩ => rfl | ⟨2, _⟩ => rfl | ⟨3, _⟩ => rfl)
  exact congrArg₂ (· * ·) (congrArg q e1) (congrArg k e2)

/-- The exponentials: the entry `(b, h, i, j)` is `exp (s j / 8)`. -/
theorem exps_at (q k : FVec Ideal S4x16x2048x64 .f32) (b : Fin 4) (h : Fin 16) (i j : Fin 2048) :
    val_main_v3 (F := Ideal) q k (ix4 b h i j)
      = Ideal.exp (Ideal.div (∑ e : Fin 64, q (ix4 b h i e) * k (ix4 b h j e)) (Ideal.ofBits .f32 0x41000000#32)) := by
  rw [val_main_v3_apply, val_main_v2_apply, val_main_v1_apply, val_main_cst_apply, scores_at]
  rfl

/-- The row sums: the entry `(b, h, i)` is zero plus the sum of the row's exponentials. -/
theorem rowsum_at (q k : FVec Ideal S4x16x2048x64 .f32) (b : Fin 4) (h : Fin 16) (i : Fin 2048) :
    val_main_v4 (F := Ideal) q k (ix3 b h i)
      = Ideal.ofBits .f32 0x00000000#32
        + ∑ j' : Fin 2048, Ideal.exp (Ideal.div (∑ e : Fin 64, q (ix4 b h i e) * k (ix4 b h j' e)) (Ideal.ofBits .f32 0x41000000#32)) := by
  refine (val_main_v4_apply q k _).trans ?_
  refine congrArg₂ (· + ·) rfl (Finset.sum_congr rfl fun j' _ => ?_)
  have e1 : idx_main_v4 (ix3 b h i) j' = ix4 b h i j' := funext fun a => Fin.ext (by
    match a with | ⟨0, _⟩ => rfl | ⟨1, _⟩ => rfl | ⟨2, _⟩ => rfl | ⟨3, _⟩ => rfl)
  exact (congrArg (val_main_v3 (F := Ideal) q k) e1).trans (exps_at q k b h i j')

/-- The reciprocals: the entry `(b, h, i, 0)` is one divided by the row sum. -/
theorem recip_at (q k : FVec Ideal S4x16x2048x64 .f32) (b : Fin 4) (h : Fin 16) (i : Fin 2048) :
    val_main_v7 (F := Ideal) q k (ix4 b h i (⟨0, Nat.one_pos⟩ : Fin 1))
      = Ideal.div (Ideal.ofBits .f32 0x3F800000#32)
          (Ideal.ofBits .f32 0x00000000#32
            + ∑ j' : Fin 2048, Ideal.exp (Ideal.div (∑ e : Fin 64, q (ix4 b h i e) * k (ix4 b h j' e)) (Ideal.ofBits .f32 0x41000000#32))) := by
  have e1 : idx_main_v5 (ix4 b h i (⟨0, Nat.one_pos⟩ : Fin 1)) = ix3 b h i := funext fun a => Fin.ext (by
    match a with | ⟨0, _⟩ => rfl | ⟨1, _⟩ => rfl | ⟨2, _⟩ => rfl)
  rw [val_main_v7_apply, val_main_v6_apply, val_main_cst_1_apply, val_main_v5_apply, e1, rowsum_at]
  rfl

/-- The weights: the entry `(b, h, i, j)` is the row's reciprocal times `exp (s j / 8)`. -/
theorem weights_at (q k : FVec Ideal S4x16x2048x64 .f32) (b : Fin 4) (h : Fin 16) (i j : Fin 2048) :
    val_main_v9 (F := Ideal) q k (ix4 b h i j)
      = Ideal.div (Ideal.ofBits .f32 0x3F800000#32)
          (Ideal.ofBits .f32 0x00000000#32
            + ∑ j' : Fin 2048, Ideal.exp (Ideal.div (∑ e : Fin 64, q (ix4 b h i e) * k (ix4 b h j' e)) (Ideal.ofBits .f32 0x41000000#32)))
        * Ideal.exp (Ideal.div (∑ e : Fin 64, q (ix4 b h i e) * k (ix4 b h j e)) (Ideal.ofBits .f32 0x41000000#32)) := by
  have e1 : idx_main_v8 (ix4 b h i j) = ix4 b h i (⟨0, Nat.one_pos⟩ : Fin 1) := funext fun a => Fin.ext (by
    match a with | ⟨0, _⟩ => rfl | ⟨1, _⟩ => rfl | ⟨2, _⟩ => rfl | ⟨3, _⟩ => rfl)
  rw [val_main_v9_apply, val_main_v8_apply, e1, recip_at, exps_at]
  rfl

/-- The reference's output entry `(b, h, i, d)` is the plain arrangement of row `i`'s scores against column `d` of the values. -/
theorem ref_apply (q k v : FVec Ideal S4x16x2048x64 .f32) (b : Fin 4) (h : Fin 16) (i : Fin 2048) (d : Fin 64) :
    val_main_v10 (F := Ideal) q k v (ix4 b h i d)
      = Cert.Attn.refRow (fun j : Fin 2048 => ∑ e : Fin 64, q (ix4 b h i e) * k (ix4 b h j e)) (fun j : Fin 2048 => v (ix4 b h j d)) := by
  unfold Cert.Attn.refRow
  refine (val_main_v10_apply q k v _).trans (Finset.sum_congr rfl fun j _ => ?_)
  have e1 : lidx_main_v10 (ix4 b h i d) j = ix4 b h i j := funext fun a => Fin.ext (by
    match a with | ⟨0, _⟩ => rfl | ⟨1, _⟩ => rfl | ⟨2, _⟩ => rfl | ⟨3, _⟩ => rfl)
  have e2 : ridx_main_v10 (ix4 b h i d) j = ix4 b h j d := funext fun a => Fin.ext (by
    match a with | ⟨0, _⟩ => rfl | ⟨1, _⟩ => rfl | ⟨2, _⟩ => rfl | ⟨3, _⟩ => rfl)
  exact congrArg₂ (· * ·) ((congrArg (val_main_v9 (F := Ideal) q k) e1).trans (weights_at q k b h i j)) (congrArg v e2)

end Cert.Attn.Ref

end
-- ==== Proof.LibFinite.lean ====
/-
  "Every entry is finite", read back: one array's conjunct of a finiteness precondition makes every entry real.

  A precondition `jnp.all(jnp.abs(x) < inf)` prints as a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«110083_j16724602651111_2_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.FiniteArgs.lean ====
/-
  The finiteness precondition read back: when the printed predicate "every entry of each of the three arrays has an
  absolute value below +∞" evaluates to the word 1, every entry of each array is a real number.

  The predicate is the conjunction (by `and` on one-bit words) of three copies of one reduction, one per array. A
  conjunction of one-bit words is 1 exactly when both are 1, so the value 1 splits into the three reductions being 1,
  and each of those makes every entry of its array real.
-/
import proofs.«110083_j16724602651111_2_alg».proof.Proof.LibFinite
import proofs.«110083_j16724602651111_2_alg».proof.Pre_finite_inputs

noncomputable section

namespace Cert.Attn.Finite

open Idealize.ShloMosaic Idealize.ShloMosaic.ValueIdx Cert.LibReal

/-- The precondition's value 1 makes every entry of the three arrays a real number. -/
theorem real_of_pre [Cert.Pre_finite_inputs.Facts] (q k v : FVec Ideal Cert.Pre_finite_inputs.S4x16x2048x64 .f32)
    (hpre : Cert.Pre_finite_inputs.fn (F := Ideal) q k v = fun _ => 1#1) :
    (∀ i, Cert.LibReal.IsReal (q i)) ∧ (∀ i, Cert.LibReal.IsReal (k i)) ∧ (∀ i, Cert.LibReal.IsReal (v i)) := by
  have h0 := congrFun hpre ValueIdx.ix0
  dsimp only [Cert.Pre_finite_inputs.fn] at h0
  -- the outer conjunction, then the inner one
  obtain ⟨h12, h3⟩ := IntOp.andi_eq_one.1 h0
  obtain ⟨h1, h2⟩ := IntOp.andi_eq_one.1 h12
  exact ⟨Cert.LibFinite.real_of_all q Cert.Pre_finite_inputs.Facts.bcast_S_S4x16x2048x64
            Cert.Pre_finite_inputs.Facts.reducesTo_S4x16x2048x64_S_d0_1_2_3 Cert.Pre_finite_inputs.Facts.h_S_ h1,
         Cert.LibFinite.real_of_all k Cert.Pre_finite_inputs.Facts.bcast_S_S4x16x2048x64
            Cert.Pre_finite_inputs.Facts.reducesTo_S4x16x2048x64_S_d0_1_2_3 Cert.Pre_finite_inputs.Facts.h_S_ h2,
         Cert.LibFinite.real_of_all v Cert.Pre_finite_inputs.Facts.bcast_S_S4x16x2048x64
            Cert.Pre_finite_inputs.Facts.reducesTo_S4x16x2048x64_S_d0_1_2_3 Cert.Pre_finite_inputs.Facts.h_S_ h3⟩

end Cert.Attn.Finite

end
-- ==== Proof.Bridge.lean ====
/-
  The idealized kernel program's result, read whole.

  After the region the host reshapes the `[64, 64, 2048]` output to `[4, 16, 64, 2048]` and swaps its last two axes, so
  the result at `(b, h, i, d)` is the region's output at (head `16 b + h`, column `d`, query `i`); before the region the
  host views each argument `[4, 16, 2048, 64]` as `[64, 2048, 64]` (and changes its format, which over the extended
  reals changes nothing), so the region's input arrays at (head `16 b + h`, `i`, `e`) are the arguments at `(b, h, i, e)`.
  Hence the result at `(b, h, i, d)` is the shifted softmax arrangement of the scores of query `(b, h, i)` against the
  keys of head `(b, h)`, contracted with column `d` of the head's values. When every entry of the arguments is a real
  number the scores are real, and the shifted arrangement equals the plain one, which is the reference's last stage
  read at the same index.
-/
import proofs.«110083_j16724602651111_2_alg».proof.Defs
import proofs.«110083_j16724602651111_2_alg».proof.Proof.Gen.Pre_finite_inputs
import proofs.«110083_j16724602651111_2_alg».proof.Proof.Blocks
import proofs.«110083_j16724602651111_2_alg».proof.Proof.HostIn
import proofs.«110083_j16724602651111_2_alg».proof.Proof.HostOut
import proofs.«110083_j16724602651111_2_alg».proof.Proof.SoftmaxLaw
import proofs.«110083_j16724602651111_2_alg».proof.Proof.RefRow
import proofs.«110083_j16724602651111_2_alg».proof.Proof.FiniteArgs

noncomputable section

namespace Cert.Attn.Bridge

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The three arguments on core `c`, as arrays of extended reals: queries, keys, values. -/
abbrev argQ (c : Dev nD) : S4x16x2048x64.Idx → EReal := m ((c : Thread nD τ).loc main_arg0)
abbrev argK (c : Dev nD) : S4x16x2048x64.Idx → EReal := m ((c : Thread nD τ).loc main_arg1)
abbrev argV (c : Dev nD) : S4x16x2048x64.Idx → EReal := m ((c : Thread nD τ).loc main_arg2)

/-- The result buffer after the host's last two operations, at `(b, h, i, d)`: the shifted arrangement over the
    arguments' entries of head `(b, h)`. No finiteness is needed for this reading. -/
theorem result_apply (c : Dev nD) (b : Fin 4) (h : Fin 16) (i : Fin 2048) (d : Fin 64) :
    (Pipeline.afterTail₀ cfgs (dats m) 0 (V0 m) [hostOps1] c main_v8 : S4x16x2048x64.Idx → EReal) (ix4 b h i d)
      = Cert.Attn.kerRow
          (fun j : Fin 2048 => ∑ e : Fin 64, argQ m c (ix4 b h i e) * argK m c (ix4 b h j e))
          (fun j : Fin 2048 => argV m c (ix4 b h j d)) := by
  refine (Cert.Attn.HostOut.tail_apply m c b h i d).trans ?_
  rw [Cert.Attn.Blocks.final m c, Cert.Attn.Blocks.Gk_ix3]
  unfold Cert.Attn.Blocks.GkAt
  refine congrArg₂ Cert.Attn.kerRow (funext fun j => Finset.sum_congr rfl fun e _ => ?_) (funext fun j => ?_)
  · exact congrArg₂ (· * ·) (Cert.Attn.HostIn.V_q m c b h i e) (Cert.Attn.HostIn.V_k m c b h j e)
  · exact Cert.Attn.HostIn.V_v m c b h j d

/-- Under the precondition (every entry of the three arguments is finite) the result buffer is the reference's last
    stage of the same arguments: index by index, the shifted arrangement on real scores is the plain one. -/
theorem result_eq (hpre : Cert.Pre_KernelIdeal m) (c : Dev nD) :
    (Pipeline.afterTail₀ cfgs (dats m) 0 (V0 m) [hostOps1] c main_v8 : S4x16x2048x64.Idx → EReal)
      = Cert.ReferenceIdeal.Read.val_main_v10 (F := Ideal) (argQ m c) (argK m c) (argV m c) := by
  have hfin := Cert.Attn.Finite.real_of_pre (argQ m c) (argK m c) (argV m c) (hpre c)
  obtain ⟨hq, hk, hv⟩ := hfin
  funext x
  obtain ⟨b, h, i, d, rfl⟩ : ∃ (b : Fin 4) (h : Fin 16) (i : Fin 2048) (d : Fin 64), x = ix4 b h i d :=
    ⟨x 0, x 1, x 2, x 3, eq_ix4 x⟩
  refine (result_apply m c b h i d).trans ?_
  refine (Cert.Attn.kerRow_eq_refRow (n := 2048) (by decide) _ _ fun j => ?_).trans ?_
  · exact Cert.LibReal.IsReal.sum _ _ fun e => Cert.LibReal.IsReal.mul (hq _) (hk _)
  · exact (Cert.Attn.Ref.ref_apply (argQ m c) (argK m c) (argV m c) b h i d).symm

/-- The idealized kernel program's run, read: under the precondition every weakly fair execution terminates with the
    result buffer at the reference's last stage of the arguments, the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v8)
        = Cert.ReferenceIdeal.Read.val_main_v10 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v8 (Pipeline.mem_restRefs_of main_v8 (by decide) (by decide))).trans (result_eq m hpre c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.Attn.Bridge

end
-- ==== Proof.lean ====
/-
  The certificate: softmax attention `softmax(q kᵀ / 8) v` over `[4, 16, 2048, 64]` arguments, computed by a kernel that
  tiles the queries, subtracts each row's maximum before exponentiating and forms the output transposed, against the
  plain reference that exponentiates the scaled scores and normalises by their sum.

  Over the extended reals a change of float format is the identity, a product of matrices is the textbook sum, and
  multiplying by the word of 1/8 is dividing by the word of 8. The two programs then differ only by the subtraction of
  the row maximum, which cancels between each exponential and the row's sum as soon as the scores are real numbers —
  and they are, because the precondition makes every entry of the arguments finite. The three frames are the generated
  ones (the reference's is its generated run with the result dropped); the idealization rewrote nothing, so the kernel
  and its idealization are one text; the value claim is the kernel program's run read through its blocks, its host
  operations and the law above (Proof/Bridge.lean), set beside the reference's generated run.
-/
import proofs.«110083_j16724602651111_2_alg».proof.Defs
import proofs.«110083_j16724602651111_2_alg».proof.Proof.Gen.Kernel
import proofs.«110083_j16724602651111_2_alg».proof.Proof.Gen.Kernel.Skeleton
import proofs.«110083_j16724602651111_2_alg».proof.Proof.Gen.Kernel.Launch
import proofs.«110083_j16724602651111_2_alg».proof.Proof.Gen.Kernel.Points
import proofs.«110083_j16724602651111_2_alg».proof.Proof.Gen.Kernel.Frame
import proofs.«110083_j16724602651111_2_alg».proof.Proof.Gen.KernelIdeal
import proofs.«110083_j16724602651111_2_alg».proof.Proof.Gen.KernelIdeal.Skeleton
import proofs.«110083_j16724602651111_2_alg».proof.Proof.Gen.KernelIdeal.Launch
import proofs.«110083_j16724602651111_2_alg».proof.Proof.Gen.KernelIdeal.Points
import proofs.«110083_j16724602651111_2_alg».proof.Proof.Gen.KernelIdeal.Frame
import proofs.«110083_j16724602651111_2_alg».proof.Proof.Gen.ReferenceIdeal
import proofs.«110083_j16724602651111_2_alg».proof.Proof.Gen.Pre_finite_inputs
import proofs.«110083_j16724602651111_2_alg».proof.Proof.Gen.ReferenceIdeal.Run
import proofs.«110083_j16724602651111_2_alg».proof.Proof.Gen.ReferenceIdeal.Read
import proofs.«110083_j16724602651111_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the reference's last stage of the
    arguments in their result buffers: the kernel program by its run read through the softmax law, the reference by
    its generated run. -/
theorem algebraic : Cert.algebraic_KernelIdeal_ReferenceIdeal := by
  intro m ρ m' ρ' hpre hagree
  refine ⟨fun c => Cert.ReferenceIdeal.Read.val_main_v10 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Bridge.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v10_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
